-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x16 : Shape := ⟨2, ![10000, 16]⟩
abbrev S10000x10000 : Shape := ⟨2, ![10000, 10000]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S10000x10000 : S_.BroadcastsInDim S10000x10000 (![] : Fin 0 → Fin S10000x10000.rank)
  reducesTo_S10000x10000_S_d0_1 : S10000x10000.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S257x128 1) : IVec S_ 1 :=
  let main_c_5 : IVec S_ 1 := constantI S_ 1 1#1
  let main_v17 : IVec S_ 1 := (fun x v => Host.reduce IntOp.andi x v reducesTo_S257x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S10000x128 .f32) (main_arg1 : FVec F S10000x16 .f32) (main_arg2 : FVec F S10000x10000 .f32) (main_arg3 : IVec S2x640000 32) (main_arg4 : FVec F S257x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x16 .f32 := Host.absf main_arg1
  let main_cst_0 : FVec F S_ .f32 := constant S_ .f32 0x7F800000#32
  let main_v5 : FVec F S10000x16 .f32 := broadcastInDim S10000x16 ![] bcast_S_S10000x16 main_cst_0
  let main_v6 : IVec S10000x16 1 := cmpf .olt main_v4 main_v5
  let main_c_1 : IVec S_ 1 := constantI S_ 1 1#1
  let main_v7 : IVec S_ 1 := (fun x v => Host.reduce IntOp.andi x v reducesTo_S10000x16_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S257x128 .f32 := Host.absf main_arg4
  let main_cst_4 : FVec F S_ .f32 := constant S_ .f32 0x7F800000#32
  let main_v15 : FVec F S257x128 .f32 := broadcastInDim S257x128 ![] bcast_S_S257x128 main_cst_4
  let main_v16 : IVec S257x128 1 := cmpf .olt main_v14 main_v15
  fn_part1 (F := F) main_arg5 main_arg6 main_arg7 main_arg8 main_arg9 main_arg10 main_arg11 main_v13 main_v16
-- ==== Kernel.lean ====
abbrev S10000x128 : Shape := ⟨2, ![10000, 128]⟩
abbrev S10000x16 : Shape := ⟨2, ![10000, 16]⟩
abbrev S10000x10000 : Shape := ⟨2, ![10000, 10000]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x2 : Shape := ⟨2, ![640000, 2]⟩
abbrev S1x128 : Shape := ⟨2, ![1, 128]⟩
abbrev S1x1 : Shape := ⟨2, ![1, 1]⟩
abbrev S6400x128 : Shape := ⟨2, ![6400, 128]⟩
abbrev S6400x1 : Shape := ⟨2, ![6400, 1]⟩
abbrev S6400 : Shape := ⟨1, ![6400]⟩

abbrev nBuf : Space → Nat
  | .hbm => 67
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x10000, .f32⟩
  | .hbm, ⟨3, _⟩ => ⟨S2x640000, .i32⟩
  | .hbm, ⟨4, _⟩ => ⟨S257x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S10000x128, .bf16⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .bf16⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .bf16⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x1, .i32⟩
  | .hbm, ⟨51, _⟩ => ⟨S640000x2, .i32⟩
  | .hbm, ⟨52, _⟩ => ⟨S640000, .f32⟩
  | .hbm, ⟨53, _⟩ => ⟨S640000x1, .f32⟩
  | .hbm, ⟨54, _⟩ => ⟨S128x128, .f32⟩
  | .hbm, ⟨55, _⟩ => ⟨S128x128, .bf16⟩
  | .hbm, ⟨56, _⟩ => ⟨S128x128, .f32⟩
  | .hbm, ⟨57, _⟩ => ⟨S128x128, .bf16⟩
  | .hbm, ⟨58, _⟩ => ⟨S1x128, .f32⟩
  | .hbm, ⟨59, _⟩ => ⟨S1x128, .f32⟩
  | .hbm, ⟨60, _⟩ => ⟨S128x128, .bf16⟩
  | .hbm, ⟨61, _⟩ => ⟨S1x128, .f32⟩
  | .hbm, ⟨62, _⟩ => ⟨S128x128, .bf16⟩
  | .hbm, ⟨63, _⟩ => ⟨S1x128, .f32⟩
  | .hbm, ⟨64, _⟩ => ⟨S1x128, .f32⟩
  | .hbm, ⟨65, _⟩ => ⟨S1x1, .f32⟩
  | .hbm, ⟨66, _⟩ => ⟨S640000x1, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S6400x1, .f32⟩
  | .local _ .vmem, ⟨5, _⟩ => ⟨S6400x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S1x128, .f32⟩
  | .local _ .vmem, ⟨15, _⟩ => ⟨S1x1, .f32⟩
  | .local _ .vmem, ⟨16, _⟩ => ⟨S6400x1, .f32⟩
  | .local _ .vmem, ⟨17, _⟩ => ⟨S6400x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6400x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  shapeCasts_S640000_S640000x1 : S640000.ShapeCasts S640000x1
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S128x1_S1x128 : S128x1.ShapeCasts S1x128
  shapeCasts_S1_S1x1 : S1.ShapeCasts S1x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S6400x1_S6400x128 : S6400x1.Broadcasts S6400x128
  broadcasts_S1x128_S6400x128 : S1x128.Broadcasts S6400x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S6400x128_S6400 : S6400x128.Reduces [1] S6400
  shapeCasts_S6400_S6400x1 : S6400.ShapeCasts S6400x1
  broadcasts_S1x1_S6400x1 : S1x1.Broadcasts S6400x1
  gather_S10000x128_S640000x1_S640000x128_1_0_n_n_0_1_1128_wf : GatherDims.WF S10000x128 S640000x1 S640000x128 [1] [0] [] [0] [] 1 ![1, 128]
  gather_S10000x10000_S640000x2_S640000_n_01_n_n_01_1_11_wf : GatherDims.WF S10000x10000 S640000x2 S640000 [] [0, 1] [] [0, 1] [] 1 ![1, 1]
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .bf16 = 32 ∨ (Rect.block (s := S640000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .bf16 = 32 ∨ (Rect.block (s := S640000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S640000x1.size a
  hwx0_2 : ∀ i : grid0.Coords, EltTy.bits .f32 = 32 ∨ (Rect.block (s := S640000x1) S6400x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6400x1.size a ≤ S640000x1.size a
  hwx0_13 : ∀ i : grid0.Coords, EltTy.bits .f32 = 32 ∨ (Rect.block (s := S640000x1) S6400x1.size (cc0_transform_13 i) (hinb0_13 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def gather_S10000x10000_S640000x2_S640000_n_01_n_n_01_1_11 : GatherDims S10000x10000 S640000x2 S640000 where
  offsetDims := []
  collapsedSliceDims := [0, 1]
  operandBatchingDims := []
  startIndicesBatchingDims := []
  startIndexMap := [0, 1]
  indexVectorDim := 1
  sliceSizes := ![1, 1]
  wf := gather_S10000x10000_S640000x2_S640000_n_01_n_n_01_1_11_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_v11) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v45) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v46) S6400x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x16 : Shape := ⟨2, ![10000, 16]⟩
abbrev S10000x10000 : Shape := ⟨2, ![10000, 10000]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x2 : Shape := ⟨2, ![640000, 2]⟩
abbrev S640000x128 : Shape := ⟨2, ![640000, 128]⟩
abbrev S640000x257 : Shape := ⟨2, ![640000, 257]⟩
abbrev S1x128 : Shape := ⟨2, ![1, 128]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x10000, .f32⟩
  | .hbm, ⟨3, _⟩ => ⟨S2x640000, .i32⟩
  | .hbm, ⟨4, _⟩ => ⟨S257x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x1, .i32⟩
  | .hbm, ⟨32, _⟩ => ⟨S640000x2, .i32⟩
  | .hbm, ⟨33, _⟩ => ⟨S640000, .f32⟩
  | .hbm, ⟨34, _⟩ => ⟨S640000x1, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S640000x257, .f32⟩
  | .hbm, ⟨54, _⟩ => ⟨S640000x128, .f32⟩
  | .hbm, ⟨55, _⟩ => ⟨S1x128, .f32⟩
  | .hbm, ⟨56, _⟩ => ⟨S640000x128, .f32⟩
  | .hbm, ⟨57, _⟩ => ⟨S640000x128, .f32⟩
  | .hbm, ⟨58, _⟩ => ⟨S_, .f32⟩
  | .hbm, ⟨59, _⟩ => ⟨S640000x128, .f32⟩
  | .hbm, ⟨60, _⟩ => ⟨S640000x128, .f32⟩
  | .hbm, ⟨61, _⟩ => ⟨S640000x128, .f32⟩
  | .hbm, ⟨62, _⟩ => ⟨S1x128, .f32⟩
  | .hbm, ⟨63, _⟩ => ⟨S640000x128, .f32⟩
  | .hbm, ⟨64, _⟩ => ⟨S640000x128, .f32⟩
  | .hbm, ⟨65, _⟩ => ⟨S_, .f32⟩
  | .hbm, ⟨66, _⟩ => ⟨S640000x128, .f32⟩
  | .hbm, ⟨67, _⟩ => ⟨S640000x128, .f32⟩
  | .hbm, ⟨68, _⟩ => ⟨S640000x128, .f32⟩
  | .hbm, ⟨69, _⟩ => ⟨S1x128, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S640000x128, .f32⟩
  | .hbm, ⟨74, _⟩ => ⟨S640000x128, .f32⟩
  | .hbm, ⟨75, _⟩ => ⟨S640000x1, .f32⟩
  | .hbm, ⟨76, _⟩ => ⟨S1x1, .f32⟩
  | .hbm, ⟨77, _⟩ => ⟨S640000x1, .f32⟩
  | .hbm, ⟨78, _⟩ => ⟨S640000x1, .f32⟩
  | .hbm, ⟨79, _⟩ => ⟨S640000x1, .f32⟩
  | .hbm, ⟨80, _⟩ => ⟨S640000x1, .f32⟩
  | .hbm, ⟨81, _⟩ => ⟨S_, .f32⟩
  | .hbm, ⟨82, _⟩ => ⟨S640000x1, .f32⟩
  | .hbm, ⟨83, _⟩ => ⟨S640000x1, .f32⟩
  | .hbm, ⟨84, _⟩ => ⟨S_, .f32⟩
  | .hbm, ⟨85, _⟩ => ⟨S640000x1, .f32⟩
  | .hbm, ⟨86, _⟩ => ⟨S640000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_cst : Ref sig .tc := ⟨.hbm, 72, rfl⟩
abbrev main_call2_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  gather_S10000x10000_S640000x2_S640000_n_01_n_n_01_1_11_wf : GatherDims.WF S10000x10000 S640000x2 S640000 [] [0, 1] [] [0, 1] [] 1 ![1, 1]
  gather_S10000x128_S640000x1_S640000x128_1_0_n_n_0_1_1128_wf : GatherDims.WF S10000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []

variable [Facts₀]

def gather_S10000x10000_S640000x2_S640000_n_01_n_n_01_1_11 : GatherDims S10000x10000 S640000x2 S640000 where
  offsetDims := []
  collapsedSliceDims := [0, 1]
  operandBatchingDims := []
  startIndicesBatchingDims := []
  startIndexMap := [0, 1]
  indexVectorDim := 1
  sliceSizes := ![1, 1]
  wf := gather_S10000x10000_S640000x2_S640000_n_01_n_n_01_1_11_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf

class Facts : Prop extends Facts₀ where

variable [Facts]
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«140155_j78116865180357_1_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LibDenseLayers.lean ====
/-
  Dense layers as functions of whole arrays over the extended reals, for any extents, and how a kernel and a host program
  each compute an entry: general lemmas.

  `dense x w b` is `x · w + b`: entry (p, q) is the sum over j of x(p, j) · w(j, q), plus the bias row's entry q.
  `dense2 x₁ x₂ w b` multiplies the rows of `w` below `k₁` with `x₁` and the rows from `k₁` on with `x₂`:
  entry (p, q) is  Σ_{j<k₁} x₁(p, j) · w(j, q)  +  Σ_{j<k₂} x₂(p, j) · w(k₁ + j, q),  plus the bias.
  The kernel computes exactly these (two matrix products into zero accumulators, on the two row ranges of the weight
  block, then the broadcast bias row). The reference concatenates `x₁` and `x₂` along the columns and takes ONE product
  over all k₁ + k₂ columns: a sum over `Fin (k₁ + k₂)` splits into its first k₁ and last k₂ terms — additivity of a
  finite sum over a disjoint union, which holds in any commutative monoid, so no finiteness of the entries is needed.
-/
import proofs.«140155_j78116865180357_1_alg».proof.Proof.LibMatRows
import proofs.«140155_j78116865180357_1_alg».proof.Proof.LibHostBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.LibDenseLayers

open Idealize.ShloMosaic Idealize.ShloMosaic.ValueIdx Cert.LibMatRows Cert.LibHostBroadcast

variable {a k k1 k2 n : ℕ}

/-! ## The layers -/

/-- Entry (p, q) of `x · w + b`. -/
def denseAt (x : (⟨2, ![a, k]⟩ : Shape).Idx → EReal) (w : (⟨2, ![k, n]⟩ : Shape).Idx → EReal)
    (b : (⟨2, ![1, n]⟩ : Shape).Idx → EReal) (p : Fin a) (q : Fin n) : EReal :=
  (∑ j : Fin k, x (ix2 p j) * w (ix2 j q)) + b (ix2 (0 : Fin 1) q)

/-- `x · w + b` as one array. -/
def dense (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => denseAt x w b (i 0) (i 1)

/-- Entry (p, q) of `x₁ · w[0:k₁] + x₂ · w[k₁:k] + b`. -/
def dense2At (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) (p : Fin a) (q : Fin n) : EReal :=
  ((∑ j : Fin k1, x1 (ix2 p j) * w (ix2 (⟨j.val, by have := j.isLt; omega⟩ : Fin k) q))
    + (∑ j : Fin k2, x2 (ix2 p j) * w (ix2 (⟨k1 + j.val, by have := j.isLt; omega⟩ : Fin k) q)))
    + b (ix2 (0 : Fin 1) q)

/-- `x₁ · w[0:k₁] + x₂ · w[k₁:k] + b` as one array. -/
def dense2 (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) : (⟨2, ![a, n]⟩ : Shape).Idx → EReal :=
  fun i => dense2At hk x1 x2 w b (i 0) (i 1)

/-- Two entries of two dense layers agree when the rows, the columns and the bias entries they read agree. -/
theorem denseAt_congr {a' n' : ℕ} {x : (⟨2, ![a, k]⟩ : Shape).Idx → EReal} {w : (⟨2, ![k, n]⟩ : Shape).Idx → EReal}
    {b : (⟨2, ![1, n]⟩ : Shape).Idx → EReal} {x' : (⟨2, ![a', k]⟩ : Shape).Idx → EReal} {w' : (⟨2, ![k, n']⟩ : Shape).Idx → EReal}
    {b' : (⟨2, ![1, n']⟩ : Shape).Idx → EReal} {p : Fin a} {q : Fin n} {p' : Fin a'} {q' : Fin n'}
    (hx : ∀ j : Fin k, x (ix2 p j) = x' (ix2 p' j)) (hw : ∀ j : Fin k, w (ix2 j q) = w' (ix2 j q'))
    (hb : b (ix2 (0 : Fin 1) q) = b' (ix2 (0 : Fin 1) q')) : denseAt x w b p q = denseAt x' w' b' p' q' := by
  unfold denseAt
  rw [hb]
  exact congrArg (· + _) (Finset.sum_congr rfl fun j _ => by rw [hx j, hw j])

/-- The same for a split layer; the weight block may be a window of `K'` rows' worth of a larger array. -/
theorem dense2At_congr {a' n' : ℕ} (hk : k1 + k2 = k) {x1 : (⟨2, ![a, k1]⟩ : Shape).Idx → EReal} {x2 : (⟨2, ![a, k2]⟩ : Shape).Idx → EReal}
    {w : (⟨2, ![k, n]⟩ : Shape).Idx → EReal} {b : (⟨2, ![1, n]⟩ : Shape).Idx → EReal}
    {x1' : (⟨2, ![a', k1]⟩ : Shape).Idx → EReal} {x2' : (⟨2, ![a', k2]⟩ : Shape).Idx → EReal}
    {w' : (⟨2, ![k, n']⟩ : Shape).Idx → EReal} {b' : (⟨2, ![1, n']⟩ : Shape).Idx → EReal}
    {p : Fin a} {q : Fin n} {p' : Fin a'} {q' : Fin n'}
    (hx1 : ∀ j : Fin k1, x1 (ix2 p j) = x1' (ix2 p' j)) (hx2 : ∀ j : Fin k2, x2 (ix2 p j) = x2' (ix2 p' j))
    (hw : ∀ j : Fin k, w (ix2 j q) = w' (ix2 j q'))
    (hb : b (ix2 (0 : Fin 1) q) = b' (ix2 (0 : Fin 1) q')) : dense2At hk x1 x2 w b p q = dense2At hk x1' x2' w' b' p' q' := by
  unfold dense2At
  rw [hb]
  refine congrArg (· + _) (congrArg₂ (· + ·) (Finset.sum_congr rfl fun j _ => ?_) (Finset.sum_congr rfl fun j _ => ?_))
  · rw [hx1 j, hw]
  · rw [hx2 j, hw]

/-! ## What the kernel computes at an entry -/

/-- A product into the zero accumulator plus the broadcast bias row, at (p, q). -/
theorem kernel_dense {d : DotDims ⟨2, ![a, k]⟩ ⟨2, ![k, n]⟩ ⟨2, ![a, n]⟩} (hd : RowsTimesMat d)
    (x : FVec Ideal ⟨2, ![a, k]⟩ .bf16) (w : FVec Ideal ⟨2, ![k, n]⟩ .bf16) (b : FVec Ideal ⟨2, ![1, n]⟩ .f32)
    (hb : (⟨2, ![1, n]⟩ : Shape).Broadcasts ⟨2, ![a, n]⟩) (p : Fin a) (q : Fin n) :
    addf (matmul d none x w (constant (F := Ideal) ⟨2, ![a, n]⟩ .f32 0x00000000#32)) (broadcastTo ⟨2, ![a, n]⟩ b hb) (ix2 p q)
      = denseAt x w b p q :=
  congrArg₂ (· + ·) (matmul_rows hd x w p q) (broadcastTo_1b_ab_apply b hb p q)

/-- Two products into zero accumulators, on the rows of the weight block below `k₁` and from `k₁` on, added, plus the
    broadcast bias row, at (p, q). -/
theorem kernel_dense2 (hk : k1 + k2 = k) {d1 : DotDims ⟨2, ![a, k1]⟩ ⟨2, ![k1, n]⟩ ⟨2, ![a, n]⟩} (hd1 : RowsTimesMat d1)
    {d2 : DotDims ⟨2, ![a, k2]⟩ ⟨2, ![k2, n]⟩ ⟨2, ![a, n]⟩} (hd2 : RowsTimesMat d2)
    (x1 : FVec Ideal ⟨2, ![a, k1]⟩ .bf16) (x2 : FVec Ideal ⟨2, ![a, k2]⟩ .bf16) (w : FVec Ideal ⟨2, ![k, n]⟩ .bf16)
    (b : FVec Ideal ⟨2, ![1, n]⟩ .f32)
    (h1 : (⟨2, ![k, n]⟩ : Shape).Slices ![0, 0] ⟨2, ![k1, n]⟩) (h2 : (⟨2, ![k, n]⟩ : Shape).Slices ![k1, 0] ⟨2, ![k2, n]⟩)
    (hb : (⟨2, ![1, n]⟩ : Shape).Broadcasts ⟨2, ![a, n]⟩) (p : Fin a) (q : Fin n) :
    addf (addf (matmul d1 none x1 (extractStridedSlice ⟨2, ![k1, n]⟩ ![0, 0] w h1) (constant (F := Ideal) ⟨2, ![a, n]⟩ .f32 0x00000000#32))
        (matmul d2 none x2 (extractStridedSlice ⟨2, ![k2, n]⟩ ![k1, 0] w h2) (constant (F := Ideal) ⟨2, ![a, n]⟩ .f32 0x00000000#32)))
      (broadcastTo ⟨2, ![a, n]⟩ b hb) (ix2 p q)
      = dense2At hk x1 x2 w b p q := by
  refine congrArg₂ (· + ·) (congrArg₂ (· + ·) ((matmul_rows hd1 x1 _ p q).trans ?_) ((matmul_rows hd2 x2 _ p q).trans ?_))
    (broadcastTo_1b_ab_apply b hb p q)
  · exact Finset.sum_congr rfl fun j _ => congrArg (x1 (ix2 p j) * ·)
      (slice2_axis0_apply 0 w h1 j q ⟨j.val, by have := j.isLt; omega⟩ (Nat.zero_add _).symm)
  · exact Finset.sum_congr rfl fun j _ => congrArg (x2 (ix2 p j) * ·)
      (slice2_axis0_apply k1 w h2 j q ⟨k1 + j.val, by have := j.isLt; omega⟩ rfl)

/-! ## What the reference computes at an entry -/

/-- The host's product plus the bias vector spread as a row and then down the rows, at (p, q). -/
theorem ref_dense {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2)) (p : Fin a) (q : Fin n) :
    addf (Host.dotGeneral d none x w) (broadcastInDim ⟨2, ![a, n]⟩ (![0, 1] : Fin 2 → Fin 2) h2 b) (ix2 p q) = denseAt x w b p q :=
  congrArg₂ (· + ·) (dotGeneral_rows hd x w p q) (row_to_mat_apply b h2 p q)

/-- A sum over the first `k₁ + k₂` naturals splits into its first `k₁` and its last `k₂` terms. -/
theorem sum_split (hk : k1 + k2 = k) (f : Fin k → EReal) :
    ∑ j : Fin k, f j = (∑ j : Fin k1, f ⟨j.val, by have := j.isLt; omega⟩) + ∑ j : Fin k2, f ⟨k1 + j.val, by have := j.isLt; omega⟩ := by
  subst hk
  exact Fin.sum_univ_add f

/-- The host's ONE product over the concatenation of `x₁` and `x₂` along the columns, plus the bias, at (p, q): the
    split layer's entry. -/
theorem ref_dense2 (hk : k1 + k2 = k) {d : DotDims ⟨2, ![a, k]⟩ ⟨2, ![k, n]⟩ ⟨2, ![a, n]⟩} (hd : RowsTimesMat d)
    (x1 : FVec Ideal ⟨2, ![a, k1]⟩ .f32) (x2 : FVec Ideal ⟨2, ![a, k2]⟩ .f32) (w : FVec Ideal ⟨2, ![k, n]⟩ .f32)
    (b : FVec Ideal ⟨2, ![1, n]⟩ .f32)
    (hc : Shape.Concatenates [(⟨2, ![a, k1]⟩ : Shape), ⟨2, ![a, k2]⟩] ⟨2, ![a, k]⟩ 1)
    (h2 : (⟨2, ![1, n]⟩ : Shape).BroadcastsInDim ⟨2, ![a, n]⟩ (![0, 1] : Fin 2 → Fin 2)) (p : Fin a) (q : Fin n) :
    addf (Host.dotGeneral d none (concatenate ⟨2, ![a, k]⟩ 1 [⟨⟨2, ![a, k1]⟩, x1⟩, ⟨⟨2, ![a, k2]⟩, x2⟩] hc) w)
      (broadcastInDim ⟨2, ![a, n]⟩ (![0, 1] : Fin 2 → Fin 2) h2 b) (ix2 p q) = dense2At hk x1 x2 w b p q := by
  refine congrArg₂ (· + ·) ((dotGeneral_rows hd _ w p q).trans ((sum_split hk _).trans ?_)) (row_to_mat_apply b h2 p q)
  refine congrArg₂ (· + ·) (Finset.sum_congr rfl fun j _ => congrArg (· * _) ?_) (Finset.sum_congr rfl fun j _ => congrArg (· * _) ?_)
  · refine concatenate_pair_apply_left (t := ⟨2, ![a, k]⟩) (1 : Fin 2) x1 x2 hc _ rfl (ix2 p j) fun ax => ?_
    match ax with
    | ⟨0, _⟩ => rfl
    | ⟨1, _⟩ => rfl
  · refine concatenate_pair_apply_right (t := ⟨2, ![a, k]⟩) (1 : Fin 2) x1 x2 hc _ rfl rfl (ix2 p j) (fun ax hax => ?_) ?_
    · match ax with
      | ⟨0, _⟩ => rfl
      | ⟨1, _⟩ => exact absurd rfl hax
    · show j.val + k1 = k1 + j.val
      omega

/-- The bias vector spread as a row is the bias vector reshaped to a row. -/
theorem bias_row_eq (bv : (⟨1, ![n]⟩ : Shape).Idx → EReal)
    (h1 : (⟨1, ![n]⟩ : Shape).BroadcastsInDim ⟨2, ![1, n]⟩ (![1] : Fin 1 → Fin 2))
    (hs : (⟨1, ![n]⟩ : Shape).ShapeCasts ⟨2, ![1, n]⟩) :
    broadcastInDim ⟨2, ![1, n]⟩ (![1] : Fin 1 → Fin 2) h1 bv = shapeCast ⟨2, ![1, n]⟩ bv hs := by
  funext i
  rw [eq_ix2 i]
  exact (vec_to_row_apply bv h1 _ _).trans (shapeCast_a_1a_apply bv hs _ _).symm

end Cert.LibDenseLayers

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.LibKeepdimsSum.lean ====
/-
  A sum along one axis of a matrix, kept with its unit axis, read at an entry at the ideal values. Inside a kernel
  `jnp.sum(x, axis, keepdims=True)` is a `vector.multi_reduction <add>` over the axis followed by a `vector.shape_cast`
  that puts the unit axis back. Two forms: the row sums of an [a, b] matrix kept as the column [a, 1], and the sum of an
  [a, 1] column kept as the one-entry array [1, 1]. On the extended reals the reduction is the plain finite sum over the
  reduced coordinate, so each reads as a sum of entries of the operand.
-/
import Idealize.ShloMosaic.Lib.Pipeline.Value
import Idealize.ShloMosaic.Lib.ValueIdx
import Idealize.ShloMosaic.PureOps.Ideal.Laws
import proofs.«140155_j78116865180357_1_alg».proof.Proof.LibIdx

noncomputable section

namespace Cert.LibKeepdimsSum

open Idealize.ShloMosaic Idealize.ShloMosaic.ValueIdx
open scoped BigOperators

/-- The row sums of an [a, b] matrix, kept as a column: entry (p, u) of the column is the sum over the lanes k of the
    matrix at (p, k). -/
theorem rowSums_keep {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ k : Fin b, v (ix2 p k) := by
  refine (Cert.LibIdx.shapeCast_a_a1_apply _ hc p u).trans ?_
  refine (Ideal.multiReduction_add_single v _ h hφ hacc (ix1 p)).trans ?_
  refine Finset.sum_congr rfl fun k _ => congrArg v ?_
  funext d
  apply Fin.ext
  match d with
  | ⟨0, _⟩ => rfl
  | ⟨1, _⟩ => rfl

/-- The sum of an [a, 1] column, kept as a [1, 1] array: its one entry is the sum over the rows r of the column at
    (r, 0). -/
theorem colSum_keep {a : ℕ} (w : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ)
    (hc : (⟨1, ![1]⟩ : Shape).ShapeCasts ⟨2, ![1, 1]⟩) (u u' : Fin 1) :
    shapeCast ⟨2, ![1, 1]⟩ (multiReduction .add [0] ⟨1, ![1]⟩ w 0x00000000#32 h hφ hacc) hc (ix2 u u')
      = ∑ r : Fin a, w (ix2 r (0 : Fin 1)) := by
  refine (Cert.LibIdx.shapeCast_a_a1_apply _ hc u u').trans ?_
  refine (Ideal.multiReduction_add_single w _ h hφ hacc (ix1 u)).trans ?_
  refine Finset.sum_congr rfl fun r _ => congrArg w ?_
  funext d
  apply Fin.ext
  match d with
  | ⟨0, _⟩ => rfl
  | ⟨1, _⟩ =>
    have hu : u.val = 0 := by omega
    show u.val = 0
    exact hu

end Cert.LibKeepdimsSum

end
-- ==== Proof.LibColumnBroadcast.lean ====
/-
  A column `[a, 1]` spread over `b` lanes by the kernel's broadcast, read at an entry: at `(p, c)` it is the column's
  entry `(p, 0)`. The companion of the library's row form (one row `[1, b]` spread down `a` rows).
-/
import Idealize.ShloMosaic.Lib.Pipeline.Value
import Idealize.ShloMosaic.Lib.ValueIdx

noncomputable section

namespace Cert.LibColumnBroadcast

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast

end
-- ==== Proof.MlpRow.lean ====
/-
  The edge scorer on one edge, as a function of the rows it reads.

  An edge carries three pieces: the feature rows `zs`, `zd` (128 numbers each) of its two end nodes and one pairwise
  scalar `g`. The first layer multiplies the joined row (zs, zd, g), 257 numbers, with a 257 x 128 weight matrix given
  here by its three row groups `wa` (rows 0..127), `wb` (rows 128..255) and `wc` (row 256), adds a bias and clamps at
  zero; two more 128 x 128 layers do the same; the last layer is one weighted sum of the 128 activations plus a bias,
  passed through the logistic function. Everything is over the extended reals; the only laws used anywhere below are
  those of a commutative monoid (a finite sum may be regrouped), which hold there without any finiteness assumption.
-/
import Idealize.ShloMosaic.PureOps.Ideal
import Mathlib.Algebra.BigOperators.Fin

noncomputable section

namespace Cert.MlpRow

open Idealize.ShloMosaic
open scoped BigOperators

/-- Clamping at zero, the zero written as the f32 word both programs print. -/
def relu (x : EReal) : EReal := max x (Ideal.ofBits .f32 0x00000000#32)

/-- Activation `q` of the first layer, the joined row given in its three parts. -/
def firstLayer (zs zd : Fin 128 → EReal) (g : EReal) (wa wb : Fin 128 → Fin 128 → EReal) (wc b : Fin 128 → EReal)
    (q : Fin 128) : EReal :=
  relu ((((∑ j : Fin 128, zs j * wa j q) + (∑ j : Fin 128, zd j * wb j q)) + g * wc q) + b q)

/-- Activation `q` of a 128 x 128 layer on the activations `h`. -/
def midLayer (h : Fin 128 → EReal) (w : Fin 128 → Fin 128 → EReal) (b : Fin 128 → EReal) (q : Fin 128) : EReal :=
  relu ((∑ j : Fin 128, h j * w j q) + b q)

/-- The last layer and the logistic function. -/
def scoreOf (h : Fin 128 → EReal) (w : Fin 128 → EReal) (b : EReal) : EReal :=
  Ideal.logistic ((∑ k : Fin 128, h k * w k) + b)

/-- The whole scorer on one edge. -/
def mlp (zs zd : Fin 128 → EReal) (g : EReal) (wa wb : Fin 128 → Fin 128 → EReal) (wc b1 : Fin 128 → EReal)
    (w2 : Fin 128 → Fin 128 → EReal) (b2 : Fin 128 → EReal) (w3 : Fin 128 → Fin 128 → EReal) (b3 : Fin 128 → EReal)
    (w4 : Fin 128 → EReal) (b4 : EReal) : EReal :=
  scoreOf (midLayer (midLayer (firstLayer zs zd g wa wb wc b1) w2 b2) w3 b3) w4 b4

/-- A sum over 257 terms is the sum of its first 128, its next 128 and its last one. -/
theorem sum_three (f : Fin 257 → EReal) :
    ∑ k : Fin 257, f k
      = ((∑ j : Fin 128, f ⟨j.val, by have := j.isLt; omega⟩) + (∑ j : Fin 128, f ⟨128 + j.val, by have := j.isLt; omega⟩))
        + f ⟨256, by omega⟩ := by
  rw [Fin.sum_univ_castSucc (n := 256) f]
  refine congrArg₂ (· + ·) ?_ rfl
  exact Fin.sum_univ_add (a := 128) (b := 128) fun i : Fin (128 + 128) => f (Fin.castSucc i)

/-- The first layer as ONE sum over the joined row of 257 numbers against the whole weight matrix `w` is the
    three-part form: the joined row's entry `k` is `zs k`, `zd (k - 128)` or `g` by the range `k` falls in. -/
theorem first_of_joined (row : Fin 257 → EReal) (w : Fin 257 → Fin 128 → EReal) (b : Fin 128 → EReal) (q : Fin 128) :
    relu ((∑ k : Fin 257, row k * w k q) + b q)
      = firstLayer (fun j => row ⟨j.val, by have := j.isLt; omega⟩) (fun j => row ⟨128 + j.val, by have := j.isLt; omega⟩)
          (row ⟨256, by omega⟩) (fun j => w ⟨j.val, by have := j.isLt; omega⟩)
          (fun j => w ⟨128 + j.val, by have := j.isLt; omega⟩) (w ⟨256, by omega⟩) b q := by
  unfold firstLayer
  rw [sum_three fun k => row k * w k q]

end Cert.MlpRow

end
-- ==== Proof.KernelRow.lean ====
/-
  What the kernel body computes for one edge of a block.

  The body holds a block of 6400 edges: the two gathered feature blocks `v0`, `v2` (6400 x 128), the pairwise column
  `v4` (6400 x 1), and the resident weights. Its first layer is two 128-term products (the feature rows against the two
  128 x 128 row groups of the first weight matrix), plus the pairwise scalar times the last weight row, plus the bias
  row, clamped at zero; two more 128 x 128 layers follow; the last layer multiplies the activations with the last
  weights laid out as a row, sums along the lanes, adds the bias and applies the logistic function. Entry (p, ·) of the
  result depends on row p of the three edge blocks only, and is `MlpRow.mlp` of those rows. (Narrowing to bf16 is the
  identity on the extended reals, and a product into a zero accumulator is the plain finite sum.)
-/
import proofs.«140155_j78116865180357_1_alg».proof.Proof.Gen.KernelIdeal.Frame
import proofs.«140155_j78116865180357_1_alg».proof.Proof.LibDenseLayers
import proofs.«140155_j78116865180357_1_alg».proof.Proof.LibKeepdimsSum
import proofs.«140155_j78116865180357_1_alg».proof.Proof.LibColumnBroadcast
import proofs.«140155_j78116865180357_1_alg».proof.Proof.MlpRow
import Idealize.ShloMosaic.Lib.ValueLayout
import Idealize.ShloMosaic.Lib.ValueIdx
import Idealize.ShloMosaic.Lib.Pipeline.Value

noncomputable section

namespace Cert.KernelIdeal.Row

open Cert.KernelIdeal Cert.KernelIdeal.Gen Idealize.ShloMosaic Idealize.ShloMosaic.ValueIdx
open Cert.MlpRow Cert.LibMatRows Cert.LibDenseLayers Cert.LibKeepdimsSum Cert.LibColumnBroadcast
open scoped BigOperators

/-- The body's four matrix products all use one dimension record, and it is a plain rows-times-matrix product:
    the left operand's second axis against the right operand's first. -/
theorem plain_dot : RowsTimesMat dot_S6400x128_S128x128_S6400x128_1_0_0_1_n_n where
  rank := rfl
  size := rfl
  l0 := fun i q => by
    unfold DotDims.lhsIdx
    rw [dif_neg (show ¬(0 : Fin S6400x128.rank) ∈ dot_S6400x128_S128x128_S6400x128_1_0_0_1_n_n.lhsBatch by decide),
      dif_pos (show (0 : Fin S6400x128.rank) ∈ dot_S6400x128_S128x128_S6400x128_1_0_0_1_n_n.lhsNonContracting by decide)]
    rfl
  l1 := fun i q => dot_S6400x128_S128x128_S6400x128_1_0_0_1_n_n.lhsIdx_val_of_single rfl i q
  r0 := fun i q => dot_S6400x128_S128x128_S6400x128_1_0_0_1_n_n.rhsIdx_val_of_single rfl i q
  r1 := fun i q => by
    unfold DotDims.rhsIdx
    rw [dif_neg (show ¬(1 : Fin S128x128.rank) ∈ dot_S6400x128_S128x128_S6400x128_1_0_0_1_n_n.rhsBatch by decide),
      dif_pos (show (1 : Fin S128x128.rank) ∈ dot_S6400x128_S128x128_S6400x128_1_0_0_1_n_n.rhsNonContracting by decide)]
    rfl

/-- The first layer at entry (p, q): the two feature rows against the two weight blocks, the pairwise scalar times
    the last weight row, the bias, clamped at zero. -/
theorem first_layer (v0 v2 : FVec Ideal S6400x128 .bf16) (v4 : FVec Ideal S6400x1 .f32) (v6 v8 : FVec Ideal S128x128 .bf16)
    (v10 v12 : FVec Ideal S1x128 .f32) (p : Fin 6400) (q : Fin 128) :
    maximumf (addf (addf (addf (matmul dot_S6400x128_S128x128_S6400x128_1_0_0_1_n_n none v0 v6 (constant (F := Ideal) S6400x128 .f32 0x00000000#32))
                (matmul dot_S6400x128_S128x128_S6400x128_1_0_0_1_n_n none v2 v8 (constant (F := Ideal) S6400x128 .f32 0x00000000#32)))
              (mulf (broadcastTo S6400x128 v4 broadcasts_S6400x1_S6400x128) (broadcastTo S6400x128 v10 broadcasts_S1x128_S6400x128)))
            (broadcastTo S6400x128 v12 broadcasts_S1x128_S6400x128))
        (broadcast S6400x128 (Scalar.ofBits (F := Ideal) .f32 0x00000000#32)) (ix2 p q)
      = firstLayer (fun j => v0 (ix2 p j)) (fun j => v2 (ix2 p j)) (v4 (ix2 p (0 : Fin 1))) (fun j c => v6 (ix2 j c))
          (fun j c => v8 (ix2 j c)) (fun c => v10 (ix2 (0 : Fin 1) c)) (fun c => v12 (ix2 (0 : Fin 1) c)) q := by
  unfold firstLayer relu
  simp only [maximumf_apply, addf_apply, mulf_apply, broadcast_apply]
  rw [matmul_rows plain_dot v0 v6 p q, matmul_rows plain_dot v2 v8 p q,
    broadcastTo_a1_ab_apply v4 broadcasts_S6400x1_S6400x128 p q,
    broadcastTo_1b_ab_apply v10 broadcasts_S1x128_S6400x128 p q,
    broadcastTo_1b_ab_apply v12 broadcasts_S1x128_S6400x128 p q]
  rfl

/-- A 128 x 128 layer at entry (p, q): the activations' row p against column q, the bias, clamped at zero. -/
theorem hidden_layer (h : FVec Ideal S6400x128 .bf16) (w : FVec Ideal S128x128 .bf16) (b : FVec Ideal S1x128 .f32)
    (p : Fin 6400) (q : Fin 128) :
    maximumf (addf (matmul dot_S6400x128_S128x128_S6400x128_1_0_0_1_n_n none h w (constant (F := Ideal) S6400x128 .f32 0x00000000#32))
          (broadcastTo S6400x128 b broadcasts_S1x128_S6400x128))
        (broadcast S6400x128 (Scalar.ofBits (F := Ideal) .f32 0x00000000#32)) (ix2 p q)
      = midLayer (fun j => h (ix2 p j)) (fun j c => w (ix2 j c)) (fun c => b (ix2 (0 : Fin 1) c)) q := by
  unfold midLayer relu
  simp only [maximumf_apply, broadcast_apply]
  rw [kernel_dense plain_dot h w b broadcasts_S1x128_S6400x128 p q]
  rfl

/-- The first payload — the first two layers — at entry (p, q). -/
theorem pay2_apply (v0 v2 : Vec Ideal S6400x128 .bf16) (v4 : Vec Ideal S6400x1 .f32) (v6 v8 : Vec Ideal S128x128 .bf16)
    (v10 v12 : Vec Ideal S1x128 .f32) (v26 : Vec Ideal S128x128 .bf16) (v28 : Vec Ideal S1x128 .f32) (p : Fin 6400) (q : Fin 128) :
    k0_pay2 (F := Ideal) v0 v2 v4 v6 v8 v10 v12 v26 v28 (ix2 p q)
      = midLayer (firstLayer (fun j => v0 (ix2 p j)) (fun j => v2 (ix2 p j)) (v4 (ix2 p (0 : Fin 1))) (fun j c => v6 (ix2 j c))
          (fun j c => v8 (ix2 j c)) (fun c => v10 (ix2 (0 : Fin 1) c)) (fun c => v12 (ix2 (0 : Fin 1) c)))
          (fun j c => v26 (ix2 j c)) (fun c => v28 (ix2 (0 : Fin 1) c)) q := by
  unfold k0_pay2
  simp only [shapeCast_self]
  rw [truncf_apply]
  refine (hidden_layer _ v26 v28 p q).trans ?_
  refine congrArg (fun h => midLayer h _ _ q) (funext fun j => ?_)
  rw [truncf_apply]
  exact first_layer v0 v2 v4 v6 v8 v10 v12 p j

/-- The second payload — the third layer, the weighted lane sum, the bias and the logistic function — at (p, u). -/
theorem pay1_apply (v35 : FVec Ideal S6400x128 .bf16) (v36 : Vec Ideal S128x128 .bf16) (v38 v45 : Vec Ideal S1x128 .f32)
    (v47 : Vec Ideal S1x1 .f32) (p : Fin 6400) (u : Fin 1) :
    k0_pay1 (F := Ideal) v35 v36 v38 v45 v47 (ix2 p u)
      = scoreOf (midLayer (fun j => v35 (ix2 p j)) (fun j c => v36 (ix2 j c)) (fun c => v38 (ix2 (0 : Fin 1) c)))
          (fun k => v45 (ix2 (0 : Fin 1) k)) (v47 (ix2 (0 : Fin 1) u)) := by
  unfold k0_pay1 scoreOf
  simp only [shapeCast_self]
  show Ideal.logistic (_ + _) = _
  refine congrArg Ideal.logistic (congrArg₂ (· + ·) ?_ (broadcastTo_1b_ab_apply v47 broadcasts_S1x1_S6400x1 p u))
  refine (rowSums_keep _ reduces_S6400x128_S6400 (.inl rfl) rfl shapeCasts_S6400_S6400x1 p u).trans ?_
  refine Finset.sum_congr rfl fun k _ => ?_
  rw [mulf_apply, broadcastTo_1b_ab_apply v45 broadcasts_S1x128_S6400x128 p k]
  exact congrArg (· * _) (hidden_layer v35 v36 v38 p k)

/-- The body's stored value at an entry of its block, from the loaded blocks: the scorer on row `y 0` of the three
    edge blocks and the resident weights. -/
theorem block_entry (x0 x1 : Vec Ideal S6400x128 .bf16) (x2 : Vec Ideal S6400x1 .f32) (x3 x4 : Vec Ideal S128x128 .bf16)
    (x5 x6 : Vec Ideal S1x128 .f32) (x7 : Vec Ideal S128x128 .bf16) (x8 : Vec Ideal S1x128 .f32) (x9 : Vec Ideal S128x128 .bf16)
    (x10 x11 : Vec Ideal S1x128 .f32) (x12 : Vec Ideal S1x1 .f32) (y : S6400x1.Idx) :
    k0_pay1 (F := Ideal) (k0_pay2 (F := Ideal) x0 x1 x2 x3 x4 x5 x6 x7 x8) x9 x10 x11 x12 y
      = mlp (fun j => x0 (ix2 (y 0) j)) (fun j => x1 (ix2 (y 0) j)) (x2 (ix2 (y 0) (0 : Fin 1))) (fun j q => x3 (ix2 j q))
          (fun j q => x4 (ix2 j q)) (fun q => x5 (ix2 (0 : Fin 1) q)) (fun q => x6 (ix2 (0 : Fin 1) q)) (fun j q => x7 (ix2 j q))
          (fun q => x8 (ix2 (0 : Fin 1) q)) (fun j q => x9 (ix2 j q)) (fun q => x10 (ix2 (0 : Fin 1) q))
          (fun k => x11 (ix2 (0 : Fin 1) k)) (x12 (ix2 (0 : Fin 1) (0 : Fin 1))) := by
  obtain ⟨p, u, rfl⟩ : ∃ (p : Fin 6400) (u : Fin 1), y = ix2 p u := ⟨y 0, y 1, eq_ix2 y⟩
  obtain rfl : u = 0 := Subsingleton.elim _ _
  rw [pay1_apply]
  unfold mlp
  refine congrArg (fun h => scoreOf (midLayer h _ _) _ _) (funext fun j => ?_)
  exact pay2_apply x0 x1 x2 x3 x4 x5 x6 x7 x8 p j

end Cert.KernelIdeal.Row

end
-- ==== Proof.KernelBlocks.lean ====
/-
  From the blocks to the whole result array.

  The call runs over 100 grid points; point `t` reads rows `6400 t … 6400 t + 6399` of the three per-edge arrays (the
  gathered feature rows of the two end nodes and the pairwise column), reads every weight array whole, and writes rows
  `6400 t … 6400 t + 6399` of the [640000, 1] result. The body's value at an entry depends on that entry's own row only
  (`Row.block_entry`), so each written block is the corresponding block of ONE function of the arrays the call finds:
  the scorer on row `e` of the per-edge arrays. The 100 blocks tile the result (edge `e` lies in block `e / 6400`), so
  after the run the result array is that function.
-/
import proofs.«140155_j78116865180357_1_alg».proof.Proof.Gen.KernelIdeal.Value
import proofs.«140155_j78116865180357_1_alg».proof.Proof.KernelRow
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.MlpRow
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The printed index maps, decided over the 100 grid points -/

theorem idx_moving0 : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, win0_0.index t (0 : Fin 2) = t.val ∧ win0_0.index t (1 : Fin 2) = 0
    ∧ win0_13.index t (0 : Fin 2) = t.val ∧ win0_13.index t (1 : Fin 2) = 0)
theorem idx_moving1 : ∀ t : Fin cfg0.N, win0_1.index t (0 : Fin 2) = t.val ∧ win0_1.index t (1 : Fin 2) = 0
    ∧ win0_13.index t (0 : Fin 2) = t.val ∧ win0_13.index t (1 : Fin 2) = 0 :=
  (by decide +kernel : ∀ t : Fin grid0.N, win0_1.index t (0 : Fin 2) = t.val ∧ win0_1.index t (1 : Fin 2) = 0
    ∧ win0_13.index t (0 : Fin 2) = t.val ∧ win0_13.index t (1 : Fin 2) = 0)
theorem idx_moving2 : ∀ t : Fin cfg0.N, win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, win0_2.index t (0 : Fin 2) = t.val ∧ win0_2.index t (1 : Fin 2) = 0
    ∧ win0_13.index t (0 : Fin 2) = t.val ∧ win0_13.index t (1 : Fin 2) = 0)

theorem idx_resident3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_resident4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_resident5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_resident6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_resident7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_resident8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_resident9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_resident10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_resident11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx_resident12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-! ## Each input window's block at a point, read off the array the call finds -/

/-- Window 0 moves with the output: at point `t` its block is rows `6400 t … 6400 t + 6399` of its array, so row
    `p` of the block is row `6400 t + p` of the array. -/
theorem iblk0_row (c : Dev nD) (t : Fin cfg0.N) (p : Fin 6400) (j : Fin 128) (e : Fin 640000)
    (he : e.val = t.val * 6400 + p.val) :
    (iblk m c 0 t : S6400x128.Idx → EReal) (ix2 p j) = (V m c main_v11 : S640000x128.Idx → EReal) (ix2 e j) := by
  obtain ⟨e0, e1, -, -⟩ := idx_moving0 t
  unfold iblk
  rw [View.read_apply]
  show (V m c main_v11 : S640000x128.Idx → EReal) _ = _
  refine congrArg _ (funext fun a => Fin.ext ?_)
  match a with
  | ⟨0, _⟩ => show win0_0.index t 0 * 6400 + 1 * p.val = e.val; rw [e0, he]; omega
  | ⟨1, _⟩ => show win0_0.index t 1 * 128 + 1 * j.val = j.val; rw [e1]; omega

/-- Window 1 moves with the output: at point `t` its block is rows `6400 t … 6400 t + 6399` of its array, so row
    `p` of the block is row `6400 t + p` of the array. -/
theorem iblk1_row (c : Dev nD) (t : Fin cfg0.N) (p : Fin 6400) (j : Fin 128) (e : Fin 640000)
    (he : e.val = t.val * 6400 + p.val) :
    (iblk m c 1 t : S6400x128.Idx → EReal) (ix2 p j) = (V m c main_v18 : S640000x128.Idx → EReal) (ix2 e j) := by
  obtain ⟨e0, e1, -, -⟩ := idx_moving1 t
  unfold iblk
  rw [View.read_apply]
  show (V m c main_v18 : S640000x128.Idx → EReal) _ = _
  refine congrArg _ (funext fun a => Fin.ext ?_)
  match a with
  | ⟨0, _⟩ => show win0_1.index t 0 * 6400 + 1 * p.val = e.val; rw [e0, he]; omega
  | ⟨1, _⟩ => show win0_1.index t 1 * 128 + 1 * j.val = j.val; rw [e1]; omega

/-- Window 2 moves with the output: at point `t` its block is rows `6400 t … 6400 t + 6399` of its array, so row
    `p` of the block is row `6400 t + p` of the array. -/
theorem iblk2_row (c : Dev nD) (t : Fin cfg0.N) (p : Fin 6400) (j : Fin 1) (e : Fin 640000)
    (he : e.val = t.val * 6400 + p.val) :
    (iblk m c 2 t : S6400x1.Idx → EReal) (ix2 p j) = (V m c main_v33 : S640000x1.Idx → EReal) (ix2 e j) := by
  obtain ⟨e0, e1, -, -⟩ := idx_moving2 t
  unfold iblk
  rw [View.read_apply]
  show (V m c main_v33 : S640000x1.Idx → EReal) _ = _
  refine congrArg _ (funext fun a => Fin.ext ?_)
  match a with
  | ⟨0, _⟩ => show win0_2.index t 0 * 6400 + 1 * p.val = e.val; rw [e0, he]; omega
  | ⟨1, _⟩ => show win0_2.index t 1 * 1 + 1 * j.val = j.val; rw [e1]; omega

/-- Window 3 holds its whole array at every point: its block is the array. -/
theorem iblk3 (c : Dev nD) (t : Fin cfg0.N) : (iblk m c 3 t : S128x128.Idx → EReal) = (V m c main_v35 : S128x128.Idx → EReal) := by
  obtain ⟨h0, h1⟩ := idx_resident3 t
  funext z
  unfold iblk
  rw [View.read_apply]
  show (V m c main_v35 : S128x128.Idx → EReal) _ = _
  refine congrArg _ (funext fun a => Fin.ext ?_)
  match a with
  | ⟨0, _⟩ => show win0_3.index t 0 * 128 + 1 * (z 0).val = (z 0).val; rw [h0]; omega
  | ⟨1, _⟩ => show win0_3.index t 1 * 128 + 1 * (z 1).val = (z 1).val; rw [h1]; omega

/-- Window 4 holds its whole array at every point: its block is the array. -/
theorem iblk4 (c : Dev nD) (t : Fin cfg0.N) : (iblk m c 4 t : S128x128.Idx → EReal) = (V m c main_v37 : S128x128.Idx → EReal) := by
  obtain ⟨h0, h1⟩ := idx_resident4 t
  funext z
  unfold iblk
  rw [View.read_apply]
  show (V m c main_v37 : S128x128.Idx → EReal) _ = _
  refine congrArg _ (funext fun a => Fin.ext ?_)
  match a with
  | ⟨0, _⟩ => show win0_4.index t 0 * 128 + 1 * (z 0).val = (z 0).val; rw [h0]; omega
  | ⟨1, _⟩ => show win0_4.index t 1 * 128 + 1 * (z 1).val = (z 1).val; rw [h1]; omega

/-- Window 5 holds its whole array at every point: its block is the array. -/
theorem iblk5 (c : Dev nD) (t : Fin cfg0.N) : (iblk m c 5 t : S1x128.Idx → EReal) = (V m c main_v38 : S1x128.Idx → EReal) := by
  obtain ⟨h0, h1⟩ := idx_resident5 t
  funext z
  unfold iblk
  rw [View.read_apply]
  show (V m c main_v38 : S1x128.Idx → EReal) _ = _
  refine congrArg _ (funext fun a => Fin.ext ?_)
  match a with
  | ⟨0, _⟩ => show win0_5.index t 0 * 1 + 1 * (z 0).val = (z 0).val; rw [h0]; omega
  | ⟨1, _⟩ => show win0_5.index t 1 * 128 + 1 * (z 1).val = (z 1).val; rw [h1]; omega

/-- Window 6 holds its whole array at every point: its block is the array. -/
theorem iblk6 (c : Dev nD) (t : Fin cfg0.N) : (iblk m c 6 t : S1x128.Idx → EReal) = (V m c main_v39 : S1x128.Idx → EReal) := by
  obtain ⟨h0, h1⟩ := idx_resident6 t
  funext z
  unfold iblk
  rw [View.read_apply]
  show (V m c main_v39 : S1x128.Idx → EReal) _ = _
  refine congrArg _ (funext fun a => Fin.ext ?_)
  match a with
  | ⟨0, _⟩ => show win0_6.index t 0 * 1 + 1 * (z 0).val = (z 0).val; rw [h0]; omega
  | ⟨1, _⟩ => show win0_6.index t 1 * 128 + 1 * (z 1).val = (z 1).val; rw [h1]; omega

/-- Window 7 holds its whole array at every point: its block is the array. -/
theorem iblk7 (c : Dev nD) (t : Fin cfg0.N) : (iblk m c 7 t : S128x128.Idx → EReal) = (V m c main_v40 : S128x128.Idx → EReal) := by
  obtain ⟨h0, h1⟩ := idx_resident7 t
  funext z
  unfold iblk
  rw [View.read_apply]
  show (V m c main_v40 : S128x128.Idx → EReal) _ = _
  refine congrArg _ (funext fun a => Fin.ext ?_)
  match a with
  | ⟨0, _⟩ => show win0_7.index t 0 * 128 + 1 * (z 0).val = (z 0).val; rw [h0]; omega
  | ⟨1, _⟩ => show win0_7.index t 1 * 128 + 1 * (z 1).val = (z 1).val; rw [h1]; omega

/-- Window 8 holds its whole array at every point: its block is the array. -/
theorem iblk8 (c : Dev nD) (t : Fin cfg0.N) : (iblk m c 8 t : S1x128.Idx → EReal) = (V m c main_v41 : S1x128.Idx → EReal) := by
  obtain ⟨h0, h1⟩ := idx_resident8 t
  funext z
  unfold iblk
  rw [View.read_apply]
  show (V m c main_v41 : S1x128.Idx → EReal) _ = _
  refine congrArg _ (funext fun a => Fin.ext ?_)
  match a with
  | ⟨0, _⟩ => show win0_8.index t 0 * 1 + 1 * (z 0).val = (z 0).val; rw [h0]; omega
  | ⟨1, _⟩ => show win0_8.index t 1 * 128 + 1 * (z 1).val = (z 1).val; rw [h1]; omega

/-- Window 9 holds its whole array at every point: its block is the array. -/
theorem iblk9 (c : Dev nD) (t : Fin cfg0.N) : (iblk m c 9 t : S128x128.Idx → EReal) = (V m c main_v42 : S128x128.Idx → EReal) := by
  obtain ⟨h0, h1⟩ := idx_resident9 t
  funext z
  unfold iblk
  rw [View.read_apply]
  show (V m c main_v42 : S128x128.Idx → EReal) _ = _
  refine congrArg _ (funext fun a => Fin.ext ?_)
  match a with
  | ⟨0, _⟩ => show win0_9.index t 0 * 128 + 1 * (z 0).val = (z 0).val; rw [h0]; omega
  | ⟨1, _⟩ => show win0_9.index t 1 * 128 + 1 * (z 1).val = (z 1).val; rw [h1]; omega

/-- Window 10 holds its whole array at every point: its block is the array. -/
theorem iblk10 (c : Dev nD) (t : Fin cfg0.N) : (iblk m c 10 t : S1x128.Idx → EReal) = (V m c main_v43 : S1x128.Idx → EReal) := by
  obtain ⟨h0, h1⟩ := idx_resident10 t
  funext z
  unfold iblk
  rw [View.read_apply]
  show (V m c main_v43 : S1x128.Idx → EReal) _ = _
  refine congrArg _ (funext fun a => Fin.ext ?_)
  match a with
  | ⟨0, _⟩ => show win0_10.index t 0 * 1 + 1 * (z 0).val = (z 0).val; rw [h0]; omega
  | ⟨1, _⟩ => show win0_10.index t 1 * 128 + 1 * (z 1).val = (z 1).val; rw [h1]; omega

/-- Window 11 holds its whole array at every point: its block is the array. -/
theorem iblk11 (c : Dev nD) (t : Fin cfg0.N) : (iblk m c 11 t : S1x128.Idx → EReal) = (V m c main_v44 : S1x128.Idx → EReal) := by
  obtain ⟨h0, h1⟩ := idx_resident11 t
  funext z
  unfold iblk
  rw [View.read_apply]
  show (V m c main_v44 : S1x128.Idx → EReal) _ = _
  refine congrArg _ (funext fun a => Fin.ext ?_)
  match a with
  | ⟨0, _⟩ => show win0_11.index t 0 * 1 + 1 * (z 0).val = (z 0).val; rw [h0]; omega
  | ⟨1, _⟩ => show win0_11.index t 1 * 128 + 1 * (z 1).val = (z 1).val; rw [h1]; omega

/-- Window 12 holds its whole array at every point: its block is the array. -/
theorem iblk12 (c : Dev nD) (t : Fin cfg0.N) : (iblk m c 12 t : S1x1.Idx → EReal) = (V m c main_v45 : S1x1.Idx → EReal) := by
  obtain ⟨h0, h1⟩ := idx_resident12 t
  funext z
  unfold iblk
  rw [View.read_apply]
  show (V m c main_v45 : S1x1.Idx → EReal) _ = _
  refine congrArg _ (funext fun a => Fin.ext ?_)
  match a with
  | ⟨0, _⟩ => show win0_12.index t 0 * 1 + 1 * (z 0).val = (z 0).val; rw [h0]; omega
  | ⟨1, _⟩ => show win0_12.index t 1 * 1 + 1 * (z 1).val = (z 1).val; rw [h1]; omega

/-! ## The result as one function of the arrays the call finds -/

/-- The scorer on edge `i 0`, from the thirteen arrays as the call finds them. -/
def entryScore (c : Dev nD) : S640000x1.Idx → EReal := fun i =>
  mlp (fun j => (V m c main_v11 : S640000x128.Idx → EReal) (ix2 (i 0) j))
    (fun j => (V m c main_v18 : S640000x128.Idx → EReal) (ix2 (i 0) j))
    ((V m c main_v33 : S640000x1.Idx → EReal) (ix2 (i 0) (0 : Fin 1)))
    (fun j q => (V m c main_v35 : S128x128.Idx → EReal) (ix2 j q))
    (fun j q => (V m c main_v37 : S128x128.Idx → EReal) (ix2 j q))
    (fun q => (V m c main_v38 : S1x128.Idx → EReal) (ix2 (0 : Fin 1) q))
    (fun q => (V m c main_v39 : S1x128.Idx → EReal) (ix2 (0 : Fin 1) q))
    (fun j q => (V m c main_v40 : S128x128.Idx → EReal) (ix2 j q))
    (fun q => (V m c main_v41 : S1x128.Idx → EReal) (ix2 (0 : Fin 1) q))
    (fun j q => (V m c main_v42 : S128x128.Idx → EReal) (ix2 j q))
    (fun q => (V m c main_v43 : S1x128.Idx → EReal) (ix2 (0 : Fin 1) q))
    (fun k => (V m c main_v44 : S1x128.Idx → EReal) (ix2 (0 : Fin 1) k))
    ((V m c main_v45 : S1x1.Idx → EReal) (ix2 (0 : Fin 1) (0 : Fin 1)))

end Cert.KernelIdeal.Whole

end
-- ==== Proof.KernelWhole.lean ====
/-
  The result array after the run.

  What a grid point writes back is the body's stored block; entry `y` of it is the scorer on row `y 0` of the point's
  three per-edge blocks, and those rows are rows `6400 t + y 0` of the arrays the call finds — the very edge the entry
  lands on in the result. So each written block is a block of ONE function of the arrays (`Whole.entryScore`), the 100
  blocks tile the result (edge `e` lies in block `e / 6400`), and the result array after the run is that function.
-/
import proofs.«140155_j78116865180357_1_alg».proof.Proof.KernelBlocks

noncomputable section

namespace Cert.KernelIdeal.Whole

open Cert.KernelIdeal Cert.KernelIdeal.Gen Idealize.ShloMosaic Idealize.ShloMosaic.TcCoe Idealize.SL.Sem
open Idealize.ShloMosaic.ValueIdx Cert.MlpRow
open Idealize.ShloMosaic.Pipeline (Dat)

variable (m : (ℓ : Loc nD τ sig) → Buf (Elt Ideal) ℓ) (ρ : Dev nD → PrngReg)

/-- What point `t` writes back is block `t` of `entryScore`. -/
theorem flushed_eq (c : Dev nD) (t : Fin cfg0.N) :
    (dats m 0 c).flushed 13 t = ((cfg0.win 13).blk t).view.read (Elt Ideal) (entryScore m c) := by
  rw [Value.flushed13]
  unfold out0_13
  rw [View.canon_unit_zero hz]
  simp only [View.ld_unit_zero (S := S6400x128) hz, View.ld_unit_zero (S := S6400x1) hz, View.ld_unit_zero (S := S128x128) hz,
    View.ld_unit_zero (S := S1x128) hz, View.ld_unit_zero (S := S1x1) hz]
  funext y
  rw [View.read_apply]
  refine (Row.block_entry (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    ((cfg0.win 13).xinj (grid0.coords t) y)).trans ?_
  rw [cast_eq]
  obtain ⟨-, -, f0, -⟩ := idx_moving0 t
  have he : ((((cfg0.win 13).blk t).view.emb y) 0).val = t.val * 6400 + (y 0).val := by
    show win0_13.index t 0 * 6400 + 1 * (y 0).val = t.val * 6400 + (y 0).val
    rw [f0]; omega
  have r0 : (fun j : Fin 128 => (iblk m c 0 t : S6400x128.Idx → EReal) (ix2 ((cfg0.win 13).xinj (grid0.coords t) y 0) j))
      = fun j : Fin 128 => (V m c main_v11 : S640000x128.Idx → EReal) (ix2 ((((cfg0.win 13).blk t).view.emb y) 0) j) :=
    funext fun j => iblk0_row m c t ((cfg0.win 13).xinj (grid0.coords t) y 0) j ((((cfg0.win 13).blk t).view.emb y) 0) he
  have r1 : (fun j : Fin 128 => (iblk m c 1 t : S6400x128.Idx → EReal) (ix2 ((cfg0.win 13).xinj (grid0.coords t) y 0) j))
      = fun j : Fin 128 => (V m c main_v18 : S640000x128.Idx → EReal) (ix2 ((((cfg0.win 13).blk t).view.emb y) 0) j) :=
    funext fun j => iblk1_row m c t ((cfg0.win 13).xinj (grid0.coords t) y 0) j ((((cfg0.win 13).blk t).view.emb y) 0) he
  have r2 : (iblk m c 2 t : S6400x1.Idx → EReal) (ix2 ((cfg0.win 13).xinj (grid0.coords t) y 0) (0 : Fin 1))
      = (V m c main_v33 : S640000x1.Idx → EReal) (ix2 ((((cfg0.win 13).blk t).view.emb y) 0) (0 : Fin 1)) :=
    iblk2_row m c t ((cfg0.win 13).xinj (grid0.coords t) y 0) 0 ((((cfg0.win 13).blk t).view.emb y) 0) he
  rw [r0, r1, r2, iblk3 m c t, iblk4 m c t, iblk5 m c t, iblk6 m c t, iblk7 m c t, iblk8 m c t, iblk9 m c t, iblk10 m c t,
    iblk11 m c t, iblk12 m c t]
  rfl

/-- An index of the result lies in point `t`'s block iff each coordinate lies in the block's range on its axis. -/
theorem mem_blk (t : Fin cfg0.N) (i : S640000x1.Idx) :
    i ∈ ((cfg0.win 13).blk t).view.set ↔ ∀ a : Fin 2, win0_13.index t a * S6400x1.size a ≤ (i a).val
      ∧ (i a).val < win0_13.index t a * S6400x1.size a + S6400x1.size a := by
  show i ∈ ((View.whole main_v46).slice (win0_13.rect t)).set ↔ _
  rw [View.set_slice_whole, Rect.mem_set_unit]
  exact Iff.rfl

/-- Every edge lies in some point's block: edge `e` in block `e / 6400`. -/
theorem cover (i : S640000x1.Idx) :
    ∃ t : Fin cfg0.N, (cfg0.win 13).flush t = true ∧ i ∈ ((cfg0.win 13).blk t).view.set := by
  have hi0 : (i 0).val < 640000 := (i 0).isLt
  have hi1 : (i 1).val < 1 := (i 1).isLt
  have hN : cfg0.N = 100 := N_0
  have ht : (i 0).val / 6400 < cfg0.N := by rw [hN]; omega
  obtain ⟨-, -, f0, f1⟩ := idx_moving0 ⟨(i 0).val / 6400, ht⟩
  refine ⟨⟨(i 0).val / 6400, ht⟩, flush0_13 _, ?_⟩
  rw [mem_blk]
  intro a
  match a with
  | ⟨0, _⟩ =>
    show win0_13.index ⟨(i 0).val / 6400, ht⟩ 0 * 6400 ≤ (i 0).val ∧ (i 0).val < win0_13.index ⟨(i 0).val / 6400, ht⟩ 0 * 6400 + 6400
    rw [f0]
    show (i 0).val / 6400 * 6400 ≤ (i 0).val ∧ (i 0).val < (i 0).val / 6400 * 6400 + 6400
    omega
  | ⟨1, _⟩ =>
    show win0_13.index ⟨(i 0).val / 6400, ht⟩ 1 * 1 ≤ (i 1).val ∧ (i 1).val < win0_13.index ⟨(i 0).val / 6400, ht⟩ 1 * 1 + 1
    rw [f1]
    omega

/-- So the result array after the run is `entryScore`. -/
theorem final (c : Dev nD) : (dats m 0 c).arrAt 13 cfg0.N = entryScore m c :=
  (dats m 0 c).arrAt_eq_of_cover 13 (entryScore m c) (fun t _ => flushed_eq m c t) (cover)

end Cert.KernelIdeal.Whole

end
-- ==== Proof.KernelHost.lean ====
/-
  The arrays the call finds, in terms of the program's arguments.

  Before the call the program prepares thirteen arrays: the feature rows of every edge's two end nodes, gathered from
  the node table at the (wrapped) source and destination indices; the pairwise scalar of every edge, gathered from the
  pairwise table at both indices and laid out as a column; the three row groups of the first weight matrix (rows
  0..127, 128..255 and row 256), cut out by slices; the other weight matrices as they are; and each bias vector laid
  out as a row. Narrowing to bf16 is the identity on the extended reals. The index arithmetic in front of the gathers
  (wrap a negative index by the table's extent, spread to a column, join the two columns) is literally the reference's,
  so each gathered array IS the reference's corresponding stage of the same arguments.
-/
import proofs.«140155_j78116865180357_1_alg».proof.Proof.Gen.KernelIdeal.Frame
import proofs.«140155_j78116865180357_1_alg».proof.Proof.Gen.ReferenceIdeal.Read
import proofs.«140155_j78116865180357_1_alg».proof.Proof.LibIdx
import Idealize.ShloMosaic.Lib.StableHlo.Run
import Idealize.ShloMosaic.Lib.ValueLayout
import Idealize.ShloMosaic.Lib.Pipeline.Value
import Idealize.ShloMosaic.Lib.ValueIdx

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## Each array as a term of the arguments -/

/-- The source nodes' feature rows: the reference's gather of the node table at the wrapped source indices. -/
theorem zs_eq : (V m c main_v11 : S640000x128.Idx → EReal) = Cert.ReferenceIdeal.Read.val_main_v25 (F := Ideal) (m ((c : Thread nD τ).loc main_arg0)) (m ((c : Thread nD τ).loc main_arg3)) := by
  dsimp only [V, hostOps0]
  after_results_simp
  rfl

/-- The destination nodes' feature rows. -/
theorem zd_eq : (V m c main_v18 : S640000x128.Idx → EReal) = Cert.ReferenceIdeal.Read.val_main_v32 (F := Ideal) (m ((c : Thread nD τ).loc main_arg0)) (m ((c : Thread nD τ).loc main_arg3)) := by
  dsimp only [V, hostOps0]
  after_results_simp
  rfl

/-- The pairwise scalars, the reference's gather laid out as a column. -/
theorem g_eq : (V m c main_v33 : S640000x1.Idx → EReal) = shapeCast S640000x1 (Cert.ReferenceIdeal.Read.val_main_v17 (F := Ideal) (m ((c : Thread nD τ).loc main_arg2)) (m ((c : Thread nD τ).loc main_arg3))) shapeCasts_S640000_S640000x1 := by
  dsimp only [V, hostOps0]
  after_results_simp
  rfl

/-- Rows 0..127 of the first weight matrix. -/
theorem w1a_eq : (V m c main_v35 : S128x128.Idx → EReal) = extractStridedSlice S128x128 ![0, 0] ((m ((c : Thread nD τ).loc main_arg4)) : S257x128.Idx → EReal) slices_S257x128_S128x128_0_0 := by
  dsimp only [V, hostOps0]
  after_results_simp
  rfl

/-- Rows 128..255 of the first weight matrix. -/
theorem w1b_eq : (V m c main_v37 : S128x128.Idx → EReal) = extractStridedSlice S128x128 ![128, 0] ((m ((c : Thread nD τ).loc main_arg4)) : S257x128.Idx → EReal) slices_S257x128_S128x128_128_0 := by
  dsimp only [V, hostOps0]
  after_results_simp
  rfl

/-- Row 256 of the first weight matrix. -/
theorem w1c_eq : (V m c main_v38 : S1x128.Idx → EReal) = extractStridedSlice S1x128 ![256, 0] ((m ((c : Thread nD τ).loc main_arg4)) : S257x128.Idx → EReal) slices_S257x128_S1x128_256_0 := by
  dsimp only [V, hostOps0]
  after_results_simp

/-- The first bias as a row. -/
theorem b1_eq : (V m c main_v39 : S1x128.Idx → EReal) = shapeCast S1x128 ((m ((c : Thread nD τ).loc main_arg5)) : S128.Idx → EReal) shapeCasts_S128_S1x128 := by
  dsimp only [V, hostOps0]
  after_results_simp
  rfl

/-- The second weight matrix. -/
theorem w2_eq : (V m c main_v40 : S128x128.Idx → EReal) = ((m ((c : Thread nD τ).loc main_arg6)) : S128x128.Idx → EReal) := by
  dsimp only [V, hostOps0]
  after_results_simp
  rfl

/-- The second bias as a row. -/
theorem b2_eq : (V m c main_v41 : S1x128.Idx → EReal) = shapeCast S1x128 ((m ((c : Thread nD τ).loc main_arg7)) : S128.Idx → EReal) shapeCasts_S128_S1x128 := by
  dsimp only [V, hostOps0]
  after_results_simp
  rfl

/-- The third weight matrix. -/
theorem w3_eq : (V m c main_v42 : S128x128.Idx → EReal) = ((m ((c : Thread nD τ).loc main_arg8)) : S128x128.Idx → EReal) := by
  dsimp only [V, hostOps0]
  after_results_simp
  rfl

/-- The third bias as a row. -/
theorem b3_eq : (V m c main_v43 : S1x128.Idx → EReal) = shapeCast S1x128 ((m ((c : Thread nD τ).loc main_arg9)) : S128.Idx → EReal) shapeCasts_S128_S1x128 := by
  dsimp only [V, hostOps0]
  after_results_simp
  rfl

/-- The last weight column laid out as a row. -/
theorem w4_eq : (V m c main_v44 : S1x128.Idx → EReal) = shapeCast S1x128 ((m ((c : Thread nD τ).loc main_arg10)) : S128x1.Idx → EReal) shapeCasts_S128x1_S1x128 := by
  dsimp only [V, hostOps0]
  after_results_simp
  rfl

/-- The last bias as a [1, 1] array. -/
theorem b4_eq : (V m c main_v45 : S1x1.Idx → EReal) = shapeCast S1x1 ((m ((c : Thread nD τ).loc main_arg11)) : S1.Idx → EReal) shapeCasts_S1_S1x1 := by
  dsimp only [V, hostOps0]
  after_results_simp
  rfl

/-! ## Read at the entries the scorer reads -/

theorem zs_apply (e : Fin 640000) (j : Fin 128) : (V m c main_v11 : S640000x128.Idx → EReal) (ix2 e j)
    = Cert.ReferenceIdeal.Read.val_main_v25 (F := Ideal) (m ((c : Thread nD τ).loc main_arg0)) (m ((c : Thread nD τ).loc main_arg3)) (ix2 e j) := congrFun (zs_eq m c) _

theorem zd_apply (e : Fin 640000) (j : Fin 128) : (V m c main_v18 : S640000x128.Idx → EReal) (ix2 e j)
    = Cert.ReferenceIdeal.Read.val_main_v32 (F := Ideal) (m ((c : Thread nD τ).loc main_arg0)) (m ((c : Thread nD τ).loc main_arg3)) (ix2 e j) := congrFun (zd_eq m c) _

theorem g_apply (e : Fin 640000) : (V m c main_v33 : S640000x1.Idx → EReal) (ix2 e (0 : Fin 1))
    = Cert.ReferenceIdeal.Read.val_main_v17 (F := Ideal) (m ((c : Thread nD τ).loc main_arg2)) (m ((c : Thread nD τ).loc main_arg3)) (ix1 e) := by
  rw [g_eq]
  exact Cert.LibIdx.shapeCast_a_a1_apply _ shapeCasts_S640000_S640000x1 e 0

theorem w1a_apply (j q : Fin 128) : (V m c main_v35 : S128x128.Idx → EReal) (ix2 j q)
    = ((m ((c : Thread nD τ).loc main_arg4)) : S257x128.Idx → EReal) (ix2 (⟨j.val, by have := j.isLt; omega⟩ : Fin 257) q) := by
  rw [w1a_eq]
  exact slice2_axis0_apply 0 _ slices_S257x128_S128x128_0_0 j q _ (Nat.zero_add _).symm

theorem w1b_apply (j q : Fin 128) : (V m c main_v37 : S128x128.Idx → EReal) (ix2 j q)
    = ((m ((c : Thread nD τ).loc main_arg4)) : S257x128.Idx → EReal) (ix2 (⟨128 + j.val, by have := j.isLt; omega⟩ : Fin 257) q) := by
  rw [w1b_eq]
  exact slice2_axis0_apply 128 _ slices_S257x128_S128x128_128_0 j q _ rfl

theorem w1c_apply (q : Fin 128) : (V m c main_v38 : S1x128.Idx → EReal) (ix2 (0 : Fin 1) q)
    = ((m ((c : Thread nD τ).loc main_arg4)) : S257x128.Idx → EReal) (ix2 (⟨256, by omega⟩ : Fin 257) q) := by
  rw [w1c_eq]
  exact slice2_axis0_apply 256 _ slices_S257x128_S1x128_256_0 (0 : Fin 1) q _ rfl

theorem b1_apply (q : Fin 128) : (V m c main_v39 : S1x128.Idx → EReal) (ix2 (0 : Fin 1) q) = ((m ((c : Thread nD τ).loc main_arg5)) : S128.Idx → EReal) (ix1 q) := by
  rw [b1_eq]
  exact shapeCast_a_1a_apply _ shapeCasts_S128_S1x128 0 q

theorem w2_apply (j q : Fin 128) : (V m c main_v40 : S128x128.Idx → EReal) (ix2 j q) = ((m ((c : Thread nD τ).loc main_arg6)) : S128x128.Idx → EReal) (ix2 j q) :=
  congrFun (w2_eq m c) _

theorem b2_apply (q : Fin 128) : (V m c main_v41 : S1x128.Idx → EReal) (ix2 (0 : Fin 1) q) = ((m ((c : Thread nD τ).loc main_arg7)) : S128.Idx → EReal) (ix1 q) := by
  rw [b2_eq]
  exact shapeCast_a_1a_apply _ shapeCasts_S128_S1x128 0 q

theorem w3_apply (j q : Fin 128) : (V m c main_v42 : S128x128.Idx → EReal) (ix2 j q) = ((m ((c : Thread nD τ).loc main_arg8)) : S128x128.Idx → EReal) (ix2 j q) :=
  congrFun (w3_eq m c) _

theorem b3_apply (q : Fin 128) : (V m c main_v43 : S1x128.Idx → EReal) (ix2 (0 : Fin 1) q) = ((m ((c : Thread nD τ).loc main_arg9)) : S128.Idx → EReal) (ix1 q) := by
  rw [b3_eq]
  exact shapeCast_a_1a_apply _ shapeCasts_S128_S1x128 0 q

/-- The weight column [128, 1] laid out as the row [1, 128]: entry (0, k) of the row is entry (k, 0) of the column
    (both at row-major position k). -/
theorem w4_apply (k : Fin 128) : (V m c main_v44 : S1x128.Idx → EReal) (ix2 (0 : Fin 1) k)
    = ((m ((c : Thread nD τ).loc main_arg10)) : S128x1.Idx → EReal) (ix2 k (0 : Fin 1)) := by
  rw [w4_eq]
  refine shapeCast_apply _ shapeCasts_S128x1_S1x128 _ _ ?_
  rw [Shape.rowMajor_val_two, Shape.rowMajor_val_two]
  show k.val * 1 + 0 = 0 * 128 + k.val
  omega

theorem b4_apply : (V m c main_v45 : S1x1.Idx → EReal) (ix2 (0 : Fin 1) (0 : Fin 1)) = ((m ((c : Thread nD τ).loc main_arg11)) : S1.Idx → EReal) (ix1 (0 : Fin 1)) := by
  rw [b4_eq]
  exact Cert.LibIdx.shapeCast_a_a1_apply _ shapeCasts_S1_S1x1 0 0

end Cert.KernelIdeal.HostArrays

end
-- ==== Proof.RefRow.lean ====
/-
  What the reference computes for one edge.

  The reference joins, for every edge, the two gathered feature rows and the pairwise scalar into one row of 257
  numbers, multiplies it with the whole 257 x 128 first weight matrix, adds the bias and clamps at zero; two more
  128 x 128 layers follow; the last layer is a product with the 128 x 1 weight column plus the bias, and the logistic
  function written out as 1 / (1 + exp(-x)). Read at an edge, the 257-term sum splits into the two 128-term sums over
  the feature rows and the one pairwise term (`MlpRow.first_of_joined`: a regrouping of a finite sum), and the written-out
  logistic function is the extended reals' logistic function by definition: the entry is `MlpRow.mlp` of the edge's rows.
-/
import proofs.«140155_j78116865180357_1_alg».proof.Proof.Gen.ReferenceIdeal.Read
import proofs.«140155_j78116865180357_1_alg».proof.Proof.MlpRow
import Idealize.ShloMosaic.Lib.IdealHost
import Idealize.ShloMosaic.Lib.Pipeline.Value
import Idealize.ShloMosaic.Lib.ValueIdx

noncomputable section

namespace Cert.ReferenceIdeal.Row

open Cert.ReferenceIdeal Cert.ReferenceIdeal.Gen Cert.ReferenceIdeal.Read Idealize.ShloMosaic Idealize.ShloMosaic.ValueIdx Cert.MlpRow
open scoped BigOperators

variable (x0 : (⟨S10000x128, .f32⟩ : BufTy).Contents (Elt Ideal)) (x2 : (⟨S10000x10000, .f32⟩ : BufTy).Contents (Elt Ideal))
  (x3 : (⟨S2x640000, .i32⟩ : BufTy).Contents (Elt Ideal)) (x4 : (⟨S257x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x1, .f32⟩ : BufTy).Contents (Elt Ideal))
  (x11 : (⟨S1, .f32⟩ : BufTy).Contents (Elt Ideal))

/-! ## The joined row of an edge: 128 + 128 + 1 numbers -/

/-- Columns 0..127 of the joined array are the first end node's gathered features. -/
theorem joined_left (e : Fin 640000) (j : Fin 128) :
    val_main_v33 (F := Ideal) x0 x2 x3 (ix2 e (⟨j.val, by have := j.isLt; omega⟩ : Fin 257))
      = val_main_v25 (F := Ideal) x0 x3 (ix2 e j) := by
  unfold val_main_v33
  refine concatenate_apply_piece (t := S640000x257) (1 : Fin 2)
    ([⟨S640000x128, val_main_v25 (F := Ideal) x0 x3⟩, ⟨S640000x128, val_main_v32 (F := Ideal) x0 x3⟩, ⟨S640000x1, val_main_v18 (F := Ideal) x2 x3⟩] : List ((s : Shape) × (s.Idx → EReal)))
    concatenates_S640000x128_S640000x128_S640000x1_S640000x257_d1 _ 0 (by simp)
    S640000x128 _ rfl rfl 0 rfl (ix2 e j) (fun b hb => ?_) (Nat.zero_add _)
  match b with
  | ⟨0, _⟩ => rfl
  | ⟨1, _⟩ => exact absurd rfl hb

/-- Columns 128..255 are the second end node's gathered features. -/
theorem joined_right (e : Fin 640000) (j : Fin 128) :
    val_main_v33 (F := Ideal) x0 x2 x3 (ix2 e (⟨128 + j.val, by have := j.isLt; omega⟩ : Fin 257))
      = val_main_v32 (F := Ideal) x0 x3 (ix2 e j) := by
  unfold val_main_v33
  refine concatenate_apply_piece (t := S640000x257) (1 : Fin 2)
    ([⟨S640000x128, val_main_v25 (F := Ideal) x0 x3⟩, ⟨S640000x128, val_main_v32 (F := Ideal) x0 x3⟩, ⟨S640000x1, val_main_v18 (F := Ideal) x2 x3⟩] : List ((s : Shape) × (s.Idx → EReal)))
    concatenates_S640000x128_S640000x128_S640000x1_S640000x257_d1 _ 1 (by simp)
    S640000x128 _ rfl rfl 128 rfl (ix2 e j) (fun b hb => ?_) rfl
  match b with
  | ⟨0, _⟩ => rfl
  | ⟨1, _⟩ => exact absurd rfl hb

/-- Column 256 is the gathered pairwise scalar. -/
theorem joined_last (e : Fin 640000) :
    val_main_v33 (F := Ideal) x0 x2 x3 (ix2 e (⟨256, by omega⟩ : Fin 257)) = val_main_v17 (F := Ideal) x2 x3 (ix1 e) := by
  have h18 : val_main_v18 (F := Ideal) x2 x3 (ix2 e (0 : Fin 1)) = val_main_v17 (F := Ideal) x2 x3 (ix1 e) := by
    rw [val_main_v18_apply]
    exact congrArg _ (funext fun a => by
      match a with
      | ⟨0, _⟩ => rfl)
  rw [← h18]
  unfold val_main_v33
  refine concatenate_apply_piece (t := S640000x257) (1 : Fin 2)
    ([⟨S640000x128, val_main_v25 (F := Ideal) x0 x3⟩, ⟨S640000x128, val_main_v32 (F := Ideal) x0 x3⟩, ⟨S640000x1, val_main_v18 (F := Ideal) x2 x3⟩] : List ((s : Shape) × (s.Idx → EReal)))
    concatenates_S640000x128_S640000x128_S640000x1_S640000x257_d1 _ 2 (by simp)
    S640000x1 _ rfl rfl 256 rfl (ix2 e (0 : Fin 1)) (fun b hb => ?_) rfl
  match b with
  | ⟨0, _⟩ => rfl
  | ⟨1, _⟩ => exact absurd rfl hb

/-! ## The layers at an entry -/

/-- The first layer at (e, q): ONE 257-term sum, split into the three parts of the joined row. -/
theorem layer1 (e : Fin 640000) (q : Fin 128) :
    val_main_v38 (F := Ideal) x0 x2 x3 x4 x5 (ix2 e q)
      = firstLayer (fun j => val_main_v25 (F := Ideal) x0 x3 (ix2 e j)) (fun j => val_main_v32 (F := Ideal) x0 x3 (ix2 e j))
          (val_main_v17 (F := Ideal) x2 x3 (ix1 e))
          (fun j c => x4 (ix2 (⟨j.val, by have := j.isLt; omega⟩ : Fin 257) c))
          (fun j c => x4 (ix2 (⟨128 + j.val, by have := j.isLt; omega⟩ : Fin 257) c))
          (fun c => x4 (ix2 (⟨256, by omega⟩ : Fin 257) c)) (fun c => x5 (ix1 c)) q := by
  rw [val_main_v38_apply, val_main_v37_apply, val_main_v34_apply, val_main_v36_apply, val_main_v35_apply,
    val_main_call0_v0_apply, val_main_call0_cst_apply]
  have hl : ∀ k : Fin 257, lidx_main_v34 (ix2 e q) k = ix2 e k := fun k => funext fun a => by
    match a with
    | ⟨0, _⟩ => rfl
    | ⟨1, _⟩ => rfl
  have hr : ∀ k : Fin 257, ridx_main_v34 (ix2 e q) k = ix2 k q := fun k => funext fun a => by
    match a with
    | ⟨0, _⟩ => rfl
    | ⟨1, _⟩ => rfl
  have hb : idx_main_v35 (idx_main_v36 (ix2 e q)) = ix1 q := funext fun a => by
    match a with
    | ⟨0, _⟩ => rfl
  simp only [hl, hr, hb]
  show relu ((∑ k : Fin 257, val_main_v33 (F := Ideal) x0 x2 x3 (ix2 e k) * x4 (ix2 k q)) + x5 (ix1 q)) = _
  refine (first_of_joined (fun k => val_main_v33 (F := Ideal) x0 x2 x3 (ix2 e k)) (fun k c => x4 (ix2 k c))
    (fun c => x5 (ix1 c)) q).trans ?_
  simp only [joined_left, joined_right, joined_last]

/-- The second layer at (e, q). -/
theorem layer2 (e : Fin 640000) (q : Fin 128) :
    val_main_v43 (F := Ideal) x0 x2 x3 x4 x5 x6 x7 (ix2 e q)
      = midLayer (fun j => val_main_v38 (F := Ideal) x0 x2 x3 x4 x5 (ix2 e j)) (fun j c => x6 (ix2 j c)) (fun c => x7 (ix1 c)) q := by
  rw [val_main_v43_apply, val_main_v42_apply, val_main_v39_apply, val_main_v41_apply, val_main_v40_apply,
    val_main_call1_v0_apply, val_main_call1_cst_apply]
  have hl : ∀ k : Fin 128, lidx_main_v39 (ix2 e q) k = ix2 e k := fun k => funext fun a => by
    match a with
    | ⟨0, _⟩ => rfl
    | ⟨1, _⟩ => rfl
  have hr : ∀ k : Fin 128, ridx_main_v39 (ix2 e q) k = ix2 k q := fun k => funext fun a => by
    match a with
    | ⟨0, _⟩ => rfl
    | ⟨1, _⟩ => rfl
  have hb : idx_main_v40 (idx_main_v41 (ix2 e q)) = ix1 q := funext fun a => by
    match a with
    | ⟨0, _⟩ => rfl
  simp only [hl, hr, hb]
  rfl

/-- The third layer at (e, q). -/
theorem layer3 (e : Fin 640000) (q : Fin 128) :
    val_main_v48 (F := Ideal) x0 x2 x3 x4 x5 x6 x7 x8 x9 (ix2 e q)
      = midLayer (fun j => val_main_v43 (F := Ideal) x0 x2 x3 x4 x5 x6 x7 (ix2 e j)) (fun j c => x8 (ix2 j c)) (fun c => x9 (ix1 c)) q := by
  rw [val_main_v48_apply, val_main_v47_apply, val_main_v44_apply, val_main_v46_apply, val_main_v45_apply,
    val_main_call2_v0_apply, val_main_call2_cst_apply]
  have hl : ∀ k : Fin 128, lidx_main_v44 (ix2 e q) k = ix2 e k := fun k => funext fun a => by
    match a with
    | ⟨0, _⟩ => rfl
    | ⟨1, _⟩ => rfl
  have hr : ∀ k : Fin 128, ridx_main_v44 (ix2 e q) k = ix2 k q := fun k => funext fun a => by
    match a with
    | ⟨0, _⟩ => rfl
    | ⟨1, _⟩ => rfl
  have hb : idx_main_v45 (idx_main_v46 (ix2 e q)) = ix1 q := funext fun a => by
    match a with
    | ⟨0, _⟩ => rfl
  simp only [hl, hr, hb]
  rfl

/-- The last layer and the written-out logistic function at (e, 0). -/
theorem last_layer (e : Fin 640000) :
    val_main_v58 (F := Ideal) x0 x2 x3 x4 x5 x6 x7 x8 x9 x10 x11 (ix2 e (0 : Fin 1))
      = scoreOf (fun k => val_main_v48 (F := Ideal) x0 x2 x3 x4 x5 x6 x7 x8 x9 (ix2 e k)) (fun k => x10 (ix2 k (0 : Fin 1)))
          (x11 (ix1 (0 : Fin 1))) := by
  rw [val_main_v58_apply, val_main_v57_apply, val_main_cst_7_apply, val_main_v56_apply, val_main_v55_apply, val_main_cst_apply,
    val_main_v54_apply, val_main_v53_apply, val_main_v52_apply, val_main_v49_apply, val_main_v51_apply, val_main_v50_apply]
  have hl : ∀ k : Fin 128, lidx_main_v49 (ix2 e (0 : Fin 1)) k = ix2 e k := fun k => funext fun a => by
    match a with
    | ⟨0, _⟩ => rfl
    | ⟨1, _⟩ => rfl
  have hr : ∀ k : Fin 128, ridx_main_v49 (ix2 e (0 : Fin 1)) k = ix2 k (0 : Fin 1) := fun k => funext fun a => by
    match a with
    | ⟨0, _⟩ => rfl
    | ⟨1, _⟩ => rfl
  have hb : idx_main_v50 (idx_main_v51 (ix2 e (0 : Fin 1))) = ix1 (0 : Fin 1) := funext fun a => by
    match a with
    | ⟨0, _⟩ => rfl
  simp only [hl, hr, hb, Ideal.ofBits_def, Ideal.ofBits_one_f32]
  rfl

/-- The reference's result at an index: the scorer on that edge's gathered rows and the argument weights. -/
theorem entry (i : S640000x1.Idx) :
    val_main_v58 (F := Ideal) x0 x2 x3 x4 x5 x6 x7 x8 x9 x10 x11 i
      = mlp (fun j => val_main_v25 (F := Ideal) x0 x3 (ix2 (i 0) j)) (fun j => val_main_v32 (F := Ideal) x0 x3 (ix2 (i 0) j))
          (val_main_v17 (F := Ideal) x2 x3 (ix1 (i 0)))
          (fun j c => x4 (ix2 (⟨j.val, by have := j.isLt; omega⟩ : Fin 257) c))
          (fun j c => x4 (ix2 (⟨128 + j.val, by have := j.isLt; omega⟩ : Fin 257) c))
          (fun c => x4 (ix2 (⟨256, by omega⟩ : Fin 257) c)) (fun c => x5 (ix1 c))
          (fun j c => x6 (ix2 j c)) (fun c => x7 (ix1 c)) (fun j c => x8 (ix2 j c)) (fun c => x9 (ix1 c))
          (fun k => x10 (ix2 k (0 : Fin 1))) (x11 (ix1 (0 : Fin 1))) := by
  obtain ⟨e, u, rfl⟩ : ∃ (e : Fin 640000) (u : Fin 1), i = ix2 e u := ⟨i 0, i 1, eq_ix2 i⟩
  obtain rfl : u = 0 := Subsingleton.elim _ _
  rw [last_layer]
  unfold mlp
  refine congrArg (fun h => scoreOf h _ _) (funext fun k => ?_)
  rw [layer3]
  refine congrArg (fun h => midLayer h _ _ k) (funext fun j => ?_)
  rw [layer2]
  refine congrArg (fun h => midLayer h _ _ j) (funext fun j' => ?_)
  exact layer1 x0 x2 x3 x4 x5 e j'

end Cert.ReferenceIdeal.Row

end
-- ==== Proof.lean ====
/-
  An edge scorer of a graph network: for each of 640000 edges, the features of its two end nodes (rows of a node table
  gathered at the edge's source and destination) and one pairwise scalar (gathered from a 10000 x 10000 table) go through
  a four-layer perceptron whose last layer has one output, squashed by the logistic function.

  The kernel keeps the gathers on the host, narrows features and weights to bf16, splits the first 257 x 128 weight
  matrix into its rows 0..127, 128..255 and 256, and runs the perceptron block by block (100 blocks of 6400 edges)
  with the last layer as a weighted lane sum. The reference joins the three pieces of every edge into one row of 257
  numbers and multiplies with the whole matrix, ends with a product against the 128 x 1 weight column, and writes the
  logistic function out as 1 / (1 + exp(-x)).

  Over the extended reals the two agree entry by entry: narrowing is the identity, a product into a zero accumulator
  and a lane sum are plain finite sums, the 257-term sum regroups into 128 + 128 + 1 terms (commutative-monoid laws
  only, so no finiteness of the inputs is used), the weight column laid out as a row holds the same numbers, the index
  arithmetic in front of the gathers is the same on both sides, and the written-out logistic function is the logistic
  function by definition. The three frames are the generated ones (the reference's is its generated run with the result
  dropped); the idealization ledger is empty, so `preserves` is `True`.
-/
import proofs.«140155_j78116865180357_1_alg».proof.Defs
import proofs.«140155_j78116865180357_1_alg».proof.Proof.Gen.Kernel
import proofs.«140155_j78116865180357_1_alg».proof.Proof.Gen.Kernel.Skeleton
import proofs.«140155_j78116865180357_1_alg».proof.Proof.Gen.Kernel.Launch
import proofs.«140155_j78116865180357_1_alg».proof.Proof.Gen.Kernel.Points
import proofs.«140155_j78116865180357_1_alg».proof.Proof.Gen.Kernel.Frame
import proofs.«140155_j78116865180357_1_alg».proof.Proof.Gen.KernelIdeal
import proofs.«140155_j78116865180357_1_alg».proof.Proof.Gen.KernelIdeal.Skeleton
import proofs.«140155_j78116865180357_1_alg».proof.Proof.Gen.KernelIdeal.Launch
import proofs.«140155_j78116865180357_1_alg».proof.Proof.Gen.KernelIdeal.Points
import proofs.«140155_j78116865180357_1_alg».proof.Proof.Gen.KernelIdeal.Frame
import proofs.«140155_j78116865180357_1_alg».proof.Proof.Gen.ReferenceIdeal
import proofs.«140155_j78116865180357_1_alg».proof.Proof.Gen.Pre_finite_inputs
import proofs.«140155_j78116865180357_1_alg».proof.Proof.Gen.KernelIdeal.Value
import proofs.«140155_j78116865180357_1_alg».proof.Proof.Gen.ReferenceIdeal.Run
import proofs.«140155_j78116865180357_1_alg».proof.Proof.Gen.ReferenceIdeal.Read
import proofs.«140155_j78116865180357_1_alg».proof.Proof.KernelWhole
import proofs.«140155_j78116865180357_1_alg».proof.Proof.KernelHost
import proofs.«140155_j78116865180357_1_alg».proof.Proof.RefRow
import Idealize.ShloMosaic.Adequacy
import Idealize.ShloMosaic.Init

noncomputable section

namespace Cert.Proof

open Idealize.ShloMosaic Idealize.ShloMosaic.TcCoe Idealize.SL.Sem

/-! ## The kernel's result and the reference's result are one function of the arguments -/

section Bridge

open Cert.KernelIdeal Cert.KernelIdeal.Gen Cert.KernelIdeal.HostArrays

/-- The scorer depends on an edge's three pieces only through their values. -/
theorem mlp_edge_congr {zs zs' zd zd' : Fin 128 → EReal} {g g' : EReal} (h1 : ∀ j, zs j = zs' j) (h2 : ∀ j, zd j = zd' j)
    (h3 : g = g') (wa wb : Fin 128 → Fin 128 → EReal) (wc b1 : Fin 128 → EReal) (w2 : Fin 128 → Fin 128 → EReal)
    (b2 : Fin 128 → EReal) (w3 : Fin 128 → Fin 128 → EReal) (b3 : Fin 128 → EReal) (w4 : Fin 128 → EReal) (b4 : EReal) :
    Cert.MlpRow.mlp zs zd g wa wb wc b1 w2 b2 w3 b3 w4 b4 = Cert.MlpRow.mlp zs' zd' g' wa wb wc b1 w2 b2 w3 b3 w4 b4 := by
  obtain rfl : zs = zs' := funext h1
  obtain rfl : zd = zd' := funext h2
  obtain rfl := h3
  rfl

/-- The kernel's result array, as a function of the arrays the call finds, is the reference's last stage of the
    same arguments: entry by entry both are the scorer on that edge's gathered rows and the argument weights. -/
theorem score_eq (m : (ℓ : Loc Cert.KernelIdeal.nD Cert.KernelIdeal.τ Cert.KernelIdeal.sig) → Buf (Elt Ideal) ℓ)
    (c : Dev Cert.KernelIdeal.nD) :
    Cert.KernelIdeal.Whole.entryScore m c
      = Cert.ReferenceIdeal.Read.val_main_v58 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4))
          (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))
          (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  funext i
  rw [Cert.ReferenceIdeal.Row.entry]
  unfold Cert.KernelIdeal.Whole.entryScore
  simp only [w1a_apply m c, w1b_apply m c, w1c_apply m c, b1_apply m c, w2_apply m c, b2_apply m c, w3_apply m c, b3_apply m c,
    w4_apply m c, b4_apply m c]
  exact mlp_edge_congr (fun j => zs_apply m c (i 0) j) (fun j => zd_apply m c (i 0) j) (g_apply m c (i 0)) _ _ _ _ _ _ _ _ _ _

end Bridge

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- The kernel's run ends with the result array at the scorer of the arrays the call finds (the blocks tile it); the
    reference's run ends at its last stage of arguments that agree; the two are one function (`score_eq`). -/
theorem algebraic : Cert.algebraic_KernelIdeal_ReferenceIdeal := by
  intro m ρ m' ρ' _ hagree
  refine ⟨fun c => Cert.KernelIdeal.Whole.entryScore m c, ?_, ?_⟩
  · exact (θ_run Cert.KernelIdeal.defs _ _).mono
      (fun r h c => ⟨(h c).1.trans (Cert.KernelIdeal.Whole.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq]
    obtain ⟨h0, -, h2, h3, h4, h5, h6, h7, h8, h9, h10, h11⟩ := hagree c
    rw [h0, h2, h3, h4, h5, h6, h7, h8, h9, h10, h11]
    exact (score_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
